-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S8192x4096 : Shape := ⟨2, ![8192, 4096]⟩
abbrev S_ : Shape := ⟨0, ![]⟩
abbrev S8192x16384 : Shape := ⟨2, ![8192, 16384]⟩
abbrev S2048x512 : Shape := ⟨2, ![2048, 512]⟩
abbrev S1024x512 : Shape := ⟨2, ![1024, 512]⟩
abbrev S2048x1024 : Shape := ⟨2, ![2048, 1024]⟩
abbrev S4x2048x16384 : Shape := ⟨3, ![4, 2048, 16384]⟩

abbrev nBuf : Space → Nat
  | .hbm => 27
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S8192x4096, .f32⟩
  | .hbm, ⟨3, _⟩ => ⟨S8192x4096, .bf16⟩
  | .hbm, ⟨4, _⟩ => ⟨S16384x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .bf16⟩
  | .hbm, ⟨25, _⟩ => ⟨S8192x16384, .f32⟩
  | .hbm, ⟨26, _⟩ => ⟨S4x2048x16384, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  bitsLt_bf16_f32 : FTy.bits .bf16 < FTy.bits .f32
  reducesTo_S16384x4096_S_d0_1 : S16384x4096.ReducesTo [0, 1] S_
  h_S_ : 0 < S_.numel
  bcast_S_S16384x4096 : S_.BroadcastsInDim S16384x4096 (![] : Fin 0 → Fin S16384x4096.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S8192x16384_S4x2048x16384 : S8192x16384.ShapeCasts S4x2048x16384
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .bf16 = 32 ∨ (Rect.block (s := S16384x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x16384.size a
  hwx0_2 : ∀ i : grid0.Coords, EltTy.bits .f32 = 32 ∨ (Rect.block (s := S8192x16384) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S4x2048x16384 : Shape := ⟨3, ![4, 2048, 16384]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What one run of the body leaves behind, as values.

  The body keeps a 2048 × 1024 accumulator. At the first step of a contraction (k = 0) it stores the zero block,
  reads it back, and stores "accumulator + (x block) · (w block)ᵀ"; at every later step it stores the same update of
  what the step before left; at the last step (k = 7) it also copies the accumulator into the output block. Each of
  the four lemmas below says that the contents found by running the body are the update payload applied to the
  right accumulator: the zero payload at a first step, the previous contents otherwise.
-/
import proofs.«104119_j18708877541742_2_alg».proof.Defs
import proofs.«104119_j18708877541742_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- Every load and store of the body is at offset (0, 0). -/
theorem hz : (![0, 0] : Fin 2 → Nat) = fun _ => 0 := funext fun a => by fin_cases a <;> rfl

/-- A first step (k = 0): the accumulator ends at the update of the zero block. -/
theorem scratch_A (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x0 : Vec F S2048x512 .bf16) (x1 : Vec F S1024x512 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz, View.ld_unit_zero (S := S1024x512) hz]

/-- A middle step (0 < k < 7): the accumulator ends at the update of what the step before left. -/
theorem scratch_B (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x0 : Vec F S2048x512 .bf16) (x1 : Vec F S1024x512 .bf16) (xs : Vec F S2048x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1024) hz,
    View.ld_unit_zero (S := S2048x512) hz, View.ld_unit_zero (S := S1024x512) hz]

/-- The last step (k = 7): the accumulator ends at the update of what the step before left, -/
theorem scratch_C (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x512 .bf16) (x1 : Vec F S1024x512 .bf16) (xs : Vec F S2048x1024 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x512) hz, View.ld_unit_zero (S := S1024x512) hz]

/-- and the output block is that same accumulator, read back and stored. -/
theorem out_C (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x512 .bf16) (x1 : Vec F S1024x512 .bf16) (xs : Vec F S2048x1024 .f32) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x1024) hz,
    View.ld_unit_zero (S := S2048x512) hz, View.ld_unit_zero (S := S1024x512) hz]

end Cert.KernelIdeal.Pieces

end
-- ==== Proof.Payload.lean ====
/-
  The body's two stored values, read at one entry, over the extended reals.

  The zero payload is 0 everywhere. The update payload at entry (p, q) of the 2048 × 1024 accumulator is
      acc(p, q) + Σ_{l < 512} x(p, l) · w(q, l):
  the matrix unit multiplies the 2048 × 512 block of x with the 1024 × 512 block of w contracted along their second
  axes, starting from a zero splat, and the body adds the result to what the accumulator held. The identity shape
  casts around it drop out.
-/
import proofs.«104119_j18708877541742_2_alg».proof.Defs
import proofs.«104119_j18708877541742_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payload
open Cert.KernelIdeal Cert.KernelIdeal.Gen Idealize.ShloMosaic.ValueIdx

/-- The zero payload is zero at every entry. -/
theorem zero_apply (j : S2048x1024.Idx) : k0_pay1 (F := Ideal) j = 0 := by
  unfold k0_pay1
  refine (congrFun (shapeCast_self _ _) j).trans ?_
  exact Ideal.ofBits_zero_f32

/-- Left operand of the block product: row from the output's row, column the contraction index. -/
theorem lhs_row (i : S2048x1024.Idx) (k : dot_S2048x512_S1024x512_S2048x1024_1_1_0_0_n_n.contr.Idx) : (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_col (i : S2048x1024.Idx) (k : dot_S2048x512_S1024x512_S2048x1024_1_1_0_0_n_n.contr.Idx) : (dot_S2048x512_S1024x512_S2048x1024_1_1_0_0_n_n.lhsIdx i k 1).val = (k ⟨0, by decide⟩).val :=
  dot_S2048x512_S1024x512_S2048x1024_1_1_0_0_n_n.lhsIdx_val_of_single rfl i k
/-- Right operand: row from the output's column, column the contraction index. -/
theorem rhs_row (i : S2048x1024.Idx) (k : dot_S2048x512_S1024x512_S2048x1024_1_1_0_0_n_n.contr.Idx) : (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_col (i : S2048x1024.Idx) (k : dot_S2048x512_S1024x512_S2048x1024_1_1_0_0_n_n.contr.Idx) : (dot_S2048x512_S1024x512_S2048x1024_1_1_0_0_n_n.rhsIdx i k 1).val = (k ⟨0, by decide⟩).val :=
  dot_S2048x512_S1024x512_S2048x1024_1_1_0_0_n_n.rhsIdx_val_of_single rfl i k

/-- The block product into a zero accumulator, at entry (p, q): the sum over the 512 contracted columns. -/
theorem blockProduct_apply (x0 : FVec Ideal S2048x512 .bf16) (x1 : FVec Ideal S1024x512 .bf16) (p : Fin 2048) (q : Fin 1024) :
    FloatOps.matmul dot_S2048x512_S1024x512_S2048x1024_1_1_0_0_n_n none x0 x1 (constant (F := Ideal) S2048x1024 .f32 0x00000000#32) (ix2 p q)
      = ∑ l : Fin 512, x0 (ix2 p l) * x1 (ix2 q l) := by
  rw [Ideal.matmul_constant_zero_apply, ← Equiv.sum_comp (contrEquiv1 dot_S2048x512_S1024x512_S2048x1024_1_1_0_0_n_n 512 rfl rfl).symm]
  refine Finset.sum_congr rfl fun l _ => ?_
  have hl := contrEquiv1_symm_val dot_S2048x512_S1024x512_S2048x1024_1_1_0_0_n_n 512 rfl rfl l
  have el : dot_S2048x512_S1024x512_S2048x1024_1_1_0_0_n_n.lhsIdx (ix2 p q) ((contrEquiv1 dot_S2048x512_S1024x512_S2048x1024_1_1_0_0_n_n 512 rfl rfl).symm l) = ix2 p l := funext fun a => Fin.ext (by
    match a with
    | ⟨0, _⟩ => exact lhs_row _ _
    | ⟨1, _⟩ => exact (lhs_col _ _).trans hl)
  have er : dot_S2048x512_S1024x512_S2048x1024_1_1_0_0_n_n.rhsIdx (ix2 p q) ((contrEquiv1 dot_S2048x512_S1024x512_S2048x1024_1_1_0_0_n_n 512 rfl rfl).symm l) = ix2 q l := funext fun a => Fin.ext (by
    match a with
    | ⟨0, _⟩ => exact rhs_row _ _
    | ⟨1, _⟩ => exact (rhs_col _ _).trans hl)
  rw [el, er]

/-- The update payload at entry (p, q): what the accumulator held there plus the block product. -/
theorem update_apply (xs : FVec Ideal S2048x1024 .f32) (x0 : FVec Ideal S2048x512 .bf16) (x1 : FVec Ideal S1024x512 .bf16)
    (p : Fin 2048) (q : Fin 1024) :
    k0_pay2 (F := Ideal) xs x0 x1 (ix2 p q) = xs (ix2 p q) + ∑ l : Fin 512, x0 (ix2 p l) * x1 (ix2 q l) := by
  unfold k0_pay2
  refine (congrFun (shapeCast_self _ _) (ix2 p q)).trans ?_
  refine (addf_apply _ _ (ix2 p q)).trans ?_
  refine congrArg (xs (ix2 p q) + ·) ?_
  refine Eq.trans ?_ (blockProduct_apply x0 x1 p q)
  show FloatOps.matmul dot_S2048x512_S1024x512_S2048x1024_1_1_0_0_n_n none (shapeCast S2048x512 x0 _) (shapeCast S1024x512 x1 _) _ _ = _
  rw [shapeCast_self, shapeCast_self]

end Cert.KernelIdeal.Payload

end
-- ==== Proof.Contraction.lean ====
/-
  A contraction over 4096 columns taken 512 columns at a time.

  For a sequence g over the natural numbers, `partialSum g n` is the sum of its first 512 · n terms. It starts at 0, grows
  by one block of 512 terms per step, and after 8 steps is the whole sum over 4096 terms: the three facts by which an
  accumulator that adds one block product per step is seen to hold the full contraction at the end. Only associativity
  and commutativity of + on the extended reals are used, so nothing here needs the terms to be finite.

  Matrices indexed by bounded naturals are extended by zero to all pairs of naturals (`ext2`) so that a row such as
  "2048 · i + p" can be written without carrying its bound around.
-/
import Mathlib.Data.EReal.Operations
import Mathlib.Algebra.BigOperators.Fin

noncomputable section

namespace Cert.Contraction

open Finset

/-- A matrix with rows below `A` and columns below `B`, read at any pair of naturals: zero outside. -/
def ext2 {A B : ℕ} (X : Fin A → Fin B → EReal) (r k : ℕ) : EReal :=
  if h : r < A ∧ k < B then X ⟨r, h.1⟩ ⟨k, h.2⟩ else 0

theorem ext2_of_lt {A B : ℕ} (X : Fin A → Fin B → EReal) {r k : ℕ} (hr : r < A) (hk : k < B) :
    ext2 X r k = X ⟨r, hr⟩ ⟨k, hk⟩ := dif_pos ⟨hr, hk⟩

/-- The sum of the first `512 * n` terms. -/
def partialSum (g : ℕ → EReal) (n : ℕ) : EReal := ∑ k ∈ range (512 * n), g k

theorem partialSum_zero (g : ℕ → EReal) : partialSum g 0 = 0 := by
  unfold partialSum
  rw [Nat.mul_zero, sum_range_zero]

/-- One more block: the terms 512 n, …, 512 n + 511. -/
theorem partialSum_succ (g : ℕ → EReal) (n : ℕ) :
    partialSum g (n + 1) = partialSum g n + ∑ l : Fin 512, g (512 * n + l.val) := by
  unfold partialSum
  rw [Nat.mul_succ, sum_range_add, Finset.sum_range (fun x => g (512 * n + x))]

/-- Eight blocks are all 4096 terms. -/
theorem partialSum_eight (g : ℕ → EReal) : partialSum g 8 = ∑ k : Fin 4096, g k.val := by
  unfold partialSum
  exact Finset.sum_range g

/-- The product of row `r` of `X` and row `o` of `W` at column `k`, the term of the contraction "x · wᵀ". -/
def term {A B K : ℕ} (X : Fin A → Fin K → EReal) (W : Fin B → Fin K → EReal) (r o k : ℕ) : EReal :=
  ext2 X r k * ext2 W o k

/-- In range the whole contraction is the sum of the matrices' own products. -/
theorem partialSum_eight_term {A B : ℕ} (X : Fin A → Fin 4096 → EReal) (W : Fin B → Fin 4096 → EReal) (r : Fin A) (o : Fin B) :
    partialSum (term X W r.val o.val) 8 = ∑ k : Fin 4096, X r k * W o k := by
  rw [partialSum_eight]
  refine sum_congr rfl fun k _ => ?_
  unfold term
  rw [ext2_of_lt X r.isLt k.isLt, ext2_of_lt W o.isLt k.isLt]

end Cert.Contraction

end
-- ==== Proof.Blocks.lean ====
/-
  The blocks the pipeline hands the body, read off the operand arrays.

  The grid is 4 × 16 × 8, its points numbered row-major: point t has coordinates (i, j, k) = (t / 128, (t / 8) mod 16,
  t mod 8). The x operand (8192 × 4096) is cut into 2048 × 512 blocks and point t gets block (i, k); the w operand
  (16384 × 4096) is cut into 1024 × 512 blocks and point t gets block (j, k); the output (8192 × 16384) is cut into
  2048 × 1024 blocks and point t works on block (i, j). So entry (p, l) of the x block at t is x(2048 i + p, 512 k + l)
  and entry (q, l) of the w block is w(1024 j + q, 512 k + l).
-/
import proofs.«104119_j18708877541742_2_alg».proof.Defs
import proofs.«104119_j18708877541742_2_alg».proof.Proof.Gen.KernelIdeal.Frame
import proofs.«104119_j18708877541742_2_alg».proof.Proof.Contraction
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx Cert.Contraction
variable (m : (ℓ : Loc nD τ sig) → Buf (Elt Ideal) ℓ)

/-- The x operand as the region finds it (after the host's reshape and change of format), by row and column. -/
def X (c : Dev nD) (r : Fin 8192) (k : Fin 4096) : EReal := V m c main_v1 (ix2 r k)
/-- The w operand as the region finds it (the dequantized weight), by row and column. -/
def W (c : Dev nD) (o : Fin 16384) (k : Fin 4096) : EReal := V m c main_v12 (ix2 o k)

/-- Which block of each array point `t` works on, from the printed index maps, decided over the 512 points. -/
theorem index_facts : ∀ t : Fin cfg0.N,
    win0_0.index t (0 : Fin 2) = t.val / 128 ∧ win0_0.index t (1 : Fin 2) = t.val % 8
    ∧ win0_1.index t (0 : Fin 2) = (t.val / 8) % 16 ∧ win0_1.index t (1 : Fin 2) = t.val % 8
    ∧ win0_2.index t (0 : Fin 2) = t.val / 128 ∧ win0_2.index t (1 : Fin 2) = (t.val / 8) % 16 :=
  (by decide +kernel : ∀ t : Fin grid0.N, _)

/-- Entry (p, l) of the x block at point `t`. -/
theorem xblk_apply (c : Dev nD) (t : Fin cfg0.N) (p : Fin 2048) (l : Fin 512) :
    (iblk m c 0 t : Vec Ideal S2048x512 .bf16) (ix2 p l) = ext2 (X m c) (2048 * (t.val / 128) + p.val) (512 * (t.val % 8) + l.val) := by
  have hN : t.val < 512 := lt_of_lt_of_eq t.isLt (show cfg0.N = 512 from N_0)
  have hr : 2048 * (t.val / 128) + p.val < 8192 := by have := p.isLt; omega
  have hk : 512 * (t.val % 8) + l.val < 4096 := by have := l.isLt; omega
  obtain ⟨h00, h01, -, -, -, -⟩ := index_facts t
  rw [ext2_of_lt _ hr hk]
  unfold iblk X
  rw [View.read_apply]
  show V m c main_v1 _ = V m c main_v1 _
  congr 1
  funext a
  apply Fin.ext
  match a with
  | ⟨0, _⟩ => show win0_0.index t 0 * 2048 + 1 * p.val = 2048 * (t.val / 128) + p.val; rw [h00]; omega
  | ⟨1, _⟩ => show win0_0.index t 1 * 512 + 1 * l.val = 512 * (t.val % 8) + l.val; rw [h01]; omega

/-- Entry (q, l) of the w block at point `t`. -/
theorem wblk_apply (c : Dev nD) (t : Fin cfg0.N) (q : Fin 1024) (l : Fin 512) :
    (iblk m c 1 t : Vec Ideal S1024x512 .bf16) (ix2 q l) = ext2 (W m c) (1024 * ((t.val / 8) % 16) + q.val) (512 * (t.val % 8) + l.val) := by
  have hN : t.val < 512 := lt_of_lt_of_eq t.isLt (show cfg0.N = 512 from N_0)
  have hr : 1024 * ((t.val / 8) % 16) + q.val < 16384 := by have := q.isLt; omega
  have hk : 512 * (t.val % 8) + l.val < 4096 := by have := l.isLt; omega
  obtain ⟨-, -, h10, h11, -, -⟩ := index_facts t
  rw [ext2_of_lt _ hr hk]
  unfold iblk W
  rw [View.read_apply]
  show V m c main_v12 _ = V m c main_v12 _
  congr 1
  funext a
  apply Fin.ext
  match a with
  | ⟨0, _⟩ => show win0_1.index t 0 * 1024 + 1 * q.val = 1024 * ((t.val / 8) % 16) + q.val; rw [h10]; omega
  | ⟨1, _⟩ => show win0_1.index t 1 * 512 + 1 * l.val = 512 * (t.val % 8) + l.val; rw [h11]; omega

end Cert.KernelIdeal.Blocks

end
-- ==== Proof.Accum.lean ====
/-
  The accumulator, point by point.

  Fix an entry (p, q) of the 2048 × 1024 accumulator. Point t = (i, j, k) works on output rows 2048 i + p and output
  columns 1024 j + q. After the body at point t the accumulator entry holds the contraction of row 2048 i + p of x with
  row 1024 j + q of w over the first 512 (k + 1) columns: at k = 0 the body starts from the zero block and adds block
  0's product; at k > 0 it adds block k's product to what point t − 1 (same i and j, k − 1) left. At k = 7 the body
  copies this, now the contraction over all 4096 columns, into the output block.
-/
import proofs.«104119_j18708877541742_2_alg».proof.Defs
import proofs.«104119_j18708877541742_2_alg».proof.Proof.Pieces
import proofs.«104119_j18708877541742_2_alg».proof.Proof.Payload
import proofs.«104119_j18708877541742_2_alg».proof.Proof.Blocks

noncomputable section

open Idealize.ShloMosaic Idealize.ShloMosaic.TcCoe Idealize.SL.Sem
open Idealize.ShloMosaic.Pipeline (Dat)

namespace Cert.KernelIdeal.Accum
open Cert.KernelIdeal Cert.KernelIdeal.Gen Idealize.ShloMosaic.ValueIdx Cert.Contraction Cert.KernelIdeal.Blocks
variable (m : (ℓ : Loc nD τ sig) → Buf (Elt Ideal) ℓ)

/-- The contraction of x's row for (n, p) with w's row for (n, q) over the column blocks 0, …, n mod 8. -/
def running (c : Dev nD) (n : ℕ) (p : Fin 2048) (q : Fin 1024) : EReal :=
  partialSum (term (X m c) (W m c) (2048 * (n / 128) + p.val) (1024 * ((n / 8) % 16) + q.val)) (n % 8 + 1)

/-- Block (t mod 8)'s product at (p, q), as the next 512 terms of the contraction. -/
theorem block_terms (c : Dev nD) (t : Fin cfg0.N) (p : Fin 2048) (q : Fin 1024)
    (x0 : FVec Ideal S2048x512 .bf16) (x1 : FVec Ideal S1024x512 .bf16) (h0 : x0 = iblk m c 0 t) (h1 : x1 = iblk m c 1 t) :
    ∑ l : Fin 512, x0 (ix2 p l) * x1 (ix2 q l)
      = ∑ l : Fin 512, term (X m c) (W m c) (2048 * (t.val / 128) + p.val) (1024 * ((t.val / 8) % 16) + q.val) (512 * (t.val % 8) + l.val) := by
  subst h0 h1
  refine Finset.sum_congr rfl fun l _ => ?_
  unfold term
  rw [← xblk_apply m c t p l, ← wblk_apply m c t q l]

/-- A first step: zero plus block 0's product. -/
theorem scratch_first (c : Dev nD) (t : Fin cfg0.N) (h0 : t.val % 8 = 0) (p : Fin 2048) (q : Fin 1024) :
    (outsAt0 m c t.val t.isLt).2 (ix2 p q) = running m c t.val p q := by
  have h1 : ¬t.val % 8 = 7 := by omega
  rw [outsAt0_A m c t h0 h1]
  dsimp only
  rw [Pieces.scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)]
  rw [Payload.update_apply, Payload.zero_apply, zero_add, block_terms m c t p q _ _ rfl rfl]
  unfold running
  rw [h0, partialSum_succ, partialSum_zero, zero_add]

/-- A later step: what the point before left plus block (t mod 8)'s product. -/
theorem scratch_next (c : Dev nD) (t : Fin cfg0.N) (h0 : ¬t.val % 8 = 0) (p : Fin 2048) (q : Fin 1024)
    (ih : (outsAt0 m c (t.val - 1) (Nat.lt_of_le_of_lt (Nat.sub_le _ _) t.isLt)).2 (ix2 p q) = running m c (t.val - 1) p q) :
    (outsAt0 m c t.val t.isLt).2 (ix2 p q) = running m c t.val p q := by
  have e1 : (t.val - 1) / 128 = t.val / 128 := by omega
  have e2 : ((t.val - 1) / 8) % 16 = (t.val / 8) % 16 := by omega
  have e3 : (t.val - 1) % 8 + 1 = t.val % 8 := by omega
  have hrun : running m c t.val p q = running m c (t.val - 1) p q
      + ∑ l : Fin 512, term (X m c) (W m c) (2048 * (t.val / 128) + p.val) (1024 * ((t.val / 8) % 16) + q.val) (512 * (t.val % 8) + l.val) := by
    unfold running
    rw [e1, e2, e3, partialSum_succ]
  by_cases h1 : t.val % 8 = 7
  · rw [outsAt0_C m c t h0 h1]
    dsimp only
    rw [Pieces.scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)]
    rw [Payload.update_apply, ih, block_terms m c t p q _ _ rfl rfl, hrun]
  · rw [outsAt0_B m c t h0 h1]
    dsimp only
    rw [Pieces.scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)]
    rw [Payload.update_apply, ih, block_terms m c t p q _ _ rfl rfl, hrun]

/-- After every point the accumulator holds the running contraction. -/
theorem scratch_eq (c : Dev nD) : ∀ (n : ℕ) (h : n < cfg0.N) (p : Fin 2048) (q : Fin 1024),
    (outsAt0 m c n h).2 (ix2 p q) = running m c n p q
  | 0, h, p, q => scratch_first m c ⟨0, h⟩ rfl p q
  | n + 1, h, p, q => by
    by_cases h0 : (n + 1) % 8 = 0
    · exact scratch_first m c ⟨n + 1, h⟩ h0 p q
    · exact scratch_next m c ⟨n + 1, h⟩ h0 p q (scratch_eq c n (Nat.lt_of_succ_lt h) p q)

/-- At a last step the output block holds the contraction over all 4096 columns. -/
theorem out_last (c : Dev nD) (t : Fin cfg0.N) (h1 : t.val % 8 = 7) (p : Fin 2048) (q : Fin 1024) :
    (outsAt0 m c t.val t.isLt).1 (ix2 p q)
      = partialSum (term (X m c) (W m c) (2048 * (t.val / 128) + p.val) (1024 * ((t.val / 8) % 16) + q.val)) 8 := by
  have h0 : ¬t.val % 8 = 0 := by omega
  have e1 : (t.val - 1) / 128 = t.val / 128 := by omega
  have e2 : ((t.val - 1) / 8) % 16 = (t.val / 8) % 16 := by omega
  have e3 : (t.val - 1) % 8 + 1 = 7 := by omega
  rw [outsAt0_C m c t h0 h1]
  dsimp only
  rw [Pieces.out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)]
  rw [Payload.update_apply, scratch_eq m c (t.val - 1) _ p q, block_terms m c t p q _ _ rfl rfl]
  unfold running
  rw [e1, e2, e3, h1, ← partialSum_succ]

end Cert.KernelIdeal.Accum

end
-- ==== Proof.KernelArray.lean ====
/-
  From blocks to the output array.

  The output array (8192 × 16384) after the region is the matrix product x · wᵀ over the extended reals:
      out(r, o) = Σ_{k < 4096} x(r, k) · w(o, k).
  Only the points with k = 7 write their block back, and the block of point (i, j, 7) covers rows 2048 i … 2048 i + 2047
  and columns 1024 j … 1024 j + 1023, where by the accumulator's invariant it holds exactly these sums. Every entry
  (r, o) lies in the block of the point (r / 2048, o / 1024, 7), so the 64 written blocks cover the array.
-/
import proofs.«104119_j18708877541742_2_alg».proof.Defs
import proofs.«104119_j18708877541742_2_alg».proof.Proof.Accum

noncomputable section

open Idealize.ShloMosaic Idealize.ShloMosaic.TcCoe Idealize.SL.Sem
open Idealize.ShloMosaic.Pipeline (Dat)

namespace Cert.KernelIdeal.KernelArray
open Cert.KernelIdeal Cert.KernelIdeal.Gen Idealize.ShloMosaic.ValueIdx Cert.Contraction Cert.KernelIdeal.Blocks
variable (m : (ℓ : Loc nD τ sig) → Buf (Elt Ideal) ℓ)

/-- The product x · wᵀ of the operands as the region finds them. -/
def outArray (c : Dev nD) : S8192x16384.Idx → EReal := fun i => ∑ k : Fin 4096, X m c (i 0) k * W m c (i 1) k

/-- What a flushing point writes back is its block of the product. -/
theorem flushed_eq (c : Dev nD) (t : Fin cfg0.N) (hf : (cfg0.win 2).flush t = true) :
    (dats m 0 c).flushed 2 t = ((cfg0.win 2).blk t).view.read (Elt Ideal) (outArray m c) := by
  have h7 : t.val % 8 = 7 := (flush0_2 t).mp hf
  have hN : t.val < 512 := lt_of_lt_of_eq t.isLt (show cfg0.N = 512 from N_0)
  obtain ⟨-, -, -, -, h20, h21⟩ := index_facts t
  show (cfg0.win 2).cut (grid0.coords t) ((dats m 0 c).after 2 t) = _
  rw [after0_2]
  funext y
  obtain ⟨p, q, rfl⟩ : ∃ (p : Fin 2048) (q : Fin 1024), y = ix2 p q := ⟨y 0, y 1, eq_ix2 y⟩
  have hr : 2048 * (t.val / 128) + p.val < 8192 := by have := p.isLt; omega
  have ho : 1024 * ((t.val / 8) % 16) + q.val < 16384 := by have := q.isLt; omega
  have hemb : ((cfg0.win 2).blk t).view.emb (ix2 p q) = ix2 (⟨2048 * (t.val / 128) + p.val, hr⟩ : Fin 8192) (⟨1024 * ((t.val / 8) % 16) + q.val, ho⟩ : Fin 16384) := by
    funext a; apply Fin.ext
    match a with
    | ⟨0, _⟩ => show win0_2.index t (0 : Fin 2) * 2048 + 1 * p.val = 2048 * (t.val / 128) + p.val; rw [h20]; omega
    | ⟨1, _⟩ => show win0_2.index t (1 : Fin 2) * 1024 + 1 * q.val = 1024 * ((t.val / 8) % 16) + q.val; rw [h21]; omega
  show (outsAt0 m c t.val t.isLt).1 (ix2 p q) = outArray m c (((cfg0.win 2).blk t).view.emb (ix2 p q))
  rw [Accum.out_last m c t h7 p q, hemb]
  exact partialSum_eight_term (X m c) (W m c) ⟨2048 * (t.val / 128) + p.val, hr⟩ ⟨1024 * ((t.val / 8) % 16) + q.val, ho⟩

/-- An entry is in point `t`'s block iff each coordinate is in the block's range on its axis. -/
theorem mem_blk (t : Fin cfg0.N) (i : S8192x16384.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v13).slice (win0_2.rect t)).set ↔ _
  rw [View.set_slice_whole, Rect.mem_set_unit]
  exact Iff.rfl

/-- Every entry of the output is in the block of a flushing point. -/
theorem cover (i : S8192x16384.Idx) : ∃ t : Fin cfg0.N, (cfg0.win 2).flush t = true ∧ i ∈ ((cfg0.win 2).blk t).view.set := by
  have hi0 : (i 0).val < 8192 := (i 0).isLt
  have hi1 : (i 1).val < 16384 := (i 1).isLt
  have hN : cfg0.N = 512 := N_0
  let t : Fin cfg0.N := ⟨(i 0).val / 2048 * 128 + (i 1).val / 1024 * 8 + 7, by rw [hN]; omega⟩
  have htv : t.val = (i 0).val / 2048 * 128 + (i 1).val / 1024 * 8 + 7 := rfl
  obtain ⟨-, -, -, -, h20, h21⟩ := index_facts t
  refine ⟨t, (flush0_2 t).mpr (by rw [htv]; omega), ?_⟩
  rw [mem_blk]
  intro a
  match a with
  | ⟨0, _⟩ => show win0_2.index t (0 : Fin 2) * 2048 ≤ (i 0).val ∧ (i 0).val < win0_2.index t (0 : Fin 2) * 2048 + 2048; rw [h20, htv]; omega
  | ⟨1, _⟩ => show win0_2.index t (1 : Fin 2) * 1024 ≤ (i 1).val ∧ (i 1).val < win0_2.index t (1 : Fin 2) * 1024 + 1024; rw [h21, htv]; omega

/-- The output array after the region is the product. -/
theorem final (c : Dev nD) : (dats m 0 c).arrAt 2 cfg0.N = outArray m c :=
  (dats m 0 c).arrAt_eq_of_cover 2 (outArray m c) (flushed_eq m c) cover

end Cert.KernelIdeal.KernelArray

end
-- ==== Proof.HostSide.lean ====
/-
  The host operations around the region, read at an index.

  Before the region the host reshapes x from 4 × 2048 × 4096 to 8192 × 4096 (row 2048 b + s is (b, s)) and changes its
  format, which is the identity over the extended reals; and it computes the dequantized weight from w: that term is,
  operation for operation, the reference's own dequantized weight (its stage before the straight-through correction),
  so it is never opened. After the region the host reshapes the 8192 × 16384 product back to 4 × 2048 × 16384.
  Together: the kernel's result at (b, s, o) is Σ_{k < 4096} x(b, s, k) · ŵ(o, k) with ŵ the dequantized weight.
-/
import proofs.«104119_j18708877541742_2_alg».proof.Defs
import proofs.«104119_j18708877541742_2_alg».proof.Proof.KernelArray
import proofs.«104119_j18708877541742_2_alg».proof.Proof.Gen.ReferenceIdeal.Read
import Idealize.ShloMosaic.Lib.StableHlo.Run

noncomputable section

open Idealize.ShloMosaic Idealize.ShloMosaic.TcCoe Idealize.SL.Sem
open Idealize.ShloMosaic.Pipeline (Dat)

namespace Cert.KernelIdeal.HostSide
open Cert.KernelIdeal Cert.KernelIdeal.Gen Idealize.ShloMosaic.ValueIdx Cert.Contraction Cert.KernelIdeal.Blocks Idealize.ShloMosaic.StableHlo
variable (m : (ℓ : Loc nD τ sig) → Buf (Elt Ideal) ℓ)

/-- The dequantized weight the region finds is the reference's dequantized weight of the same argument. -/
theorem w_term (c : Dev nD) : (V m c main_v12 : S16384x4096.Idx → EReal)
    = Cert.ReferenceIdeal.Read.val_main_v9 (F := Ideal) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results
  rfl

theorem W_apply (c : Dev nD) (o : Fin 16384) (k : Fin 4096) :
    W m c o k = Cert.ReferenceIdeal.Read.val_main_v9 (F := Ideal) (m ((c : Thread nD τ).loc main_arg1)) (ix2 o k) := by
  unfold W
  rw [w_term]

/-- The argument x as launched, as a function of its index. -/
def argX (c : Dev nD) : S4x2048x4096.Idx → EReal := m ((c : Thread nD τ).loc main_arg0)

/-- Row 2048 b + s of the x operand is x(b, s, ·). -/
theorem X_apply (c : Dev nD) (b : Fin 4) (s : Fin 2048) (k : Fin 4096) (hr : 2048 * b.val + s.val < 8192) :
    X m c ⟨2048 * b.val + s.val, hr⟩ k = argX m c (ix3 b s k) := by
  unfold X
  dsimp only [V, V0]
  simp only [hostOps0, hostOps0_1, hostOps0_2, hostOps0_3, hostOps0_4, List.flatten_cons, List.flatten_nil, List.append_nil, List.cons_append, List.nil_append]
  after_results
  show shapeCast S8192x4096 (m ((c : Thread nD τ).loc main_arg0)) shapeCasts_S4x2048x4096_S8192x4096 (ix2 ⟨2048 * b.val + s.val, hr⟩ k) = _
  refine shapeCast_apply _ _ _ (ix3 b s k) ?_
  rw [Shape.rowMajor_val_three, Shape.rowMajor_val_two]
  show (b.val * 2048 + s.val) * 4096 + k.val = (2048 * b.val + s.val) * 4096 + k.val
  omega

/-- The kernel's result: x contracted with the dequantized weight. -/
def result (c : Dev nD) : S4x2048x16384.Idx → EReal := fun i =>
  ∑ k : Fin 4096, argX m c (ix3 (i 0) (i 1) k) * W m c (i 2) k

/-- After the host's final reshape, @main's result is that function. -/
theorem tail_eq (c : Dev nD) : Pipeline.afterTail₀ cfgs (dats m) 0 (V0 m) [hostOps1] c main_v14 = result m c := by
  have hw : Pipeline.withArrays (cfgs 0).spec c (V0 m c) (fun w => (dats m 0 c).arrAt w (cfgs 0).N) (Proc.devRef .tc main_v13)
      = KernelArray.outArray m c :=
    (Pipeline.withArrays_arr spec0 launch0.win.arr_inj c _ _ 2).trans (KernelArray.final m c)
  unfold Pipeline.afterTail₀
  show StableHlo.after hostOps1 _ (Proc.devRef .tc main_v14) = _
  after_results
  funext i
  obtain ⟨b, s, o, rfl⟩ : ∃ (b : Fin 4) (s : Fin 2048) (o : Fin 16384), i = ix3 b s o := ⟨i 0, i 1, i 2, eq_ix3 i⟩
  show shapeCast S4x2048x16384 (Pipeline.withArrays (cfgs 0).spec c (V0 m c) (fun w => (dats m 0 c).arrAt w (cfgs 0).N) (Proc.devRef .tc main_v13))
    shapeCasts_S8192x16384_S4x2048x16384 (ix3 b s o) = _
  rw [hw]
  have hr : 2048 * b.val + s.val < 8192 := by have := b.isLt; have := s.isLt; omega
  refine (shapeCast_apply _ _ (ix3 b s o) (ix2 (⟨2048 * b.val + s.val, hr⟩ : Fin 8192) o) ?_).trans ?_
  · rw [Shape.rowMajor_val_three, Shape.rowMajor_val_two]
    show (2048 * b.val + s.val) * 16384 + o.val = (b.val * 2048 + s.val) * 16384 + o.val
    omega
  · show KernelArray.outArray m c (ix2 (⟨2048 * b.val + s.val, hr⟩ : Fin 8192) o) = result m c (ix3 b s o)
    unfold KernelArray.outArray result
    exact Finset.sum_congr rfl fun k _ => congrArg (· * W m c o k) (X_apply m c b s k hr)

end Cert.KernelIdeal.HostSide

end
-- ==== Proof.KernelRun.lean ====
/-
  The idealized kernel's run, with its result named: every weakly fair execution ends with @main's result at
  "x contracted with the dequantized weight" (`HostSide.result`) and both arguments as launched.
-/
import proofs.«104119_j18708877541742_2_alg».proof.Defs
import proofs.«104119_j18708877541742_2_alg».proof.Proof.HostSide

noncomputable section

open Idealize.ShloMosaic Idealize.ShloMosaic.TcCoe Idealize.SL.Sem
open Idealize.ShloMosaic.Pipeline (Dat)

namespace Cert.KernelIdeal.KernelRun
open Cert.KernelIdeal Cert.KernelIdeal.Gen
variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v14) = HostSide.result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (Pipeline.mem_restRefs_of main_v14 (by decide) (by decide))).trans (HostSide.tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference at the ideal instance, read index by index.

  The reference contracts x(b, s, ·) with the straight-through weight (ŵ + w) − w, where ŵ is the dequantized weight.
  For a finite w(o, k) — a real number — adding it to any extended real and subtracting it again gives that extended
  real back, so the straight-through weight is ŵ and the reference's result at (b, s, o) is
  Σ_{k < 4096} x(b, s, k) · ŵ(o, k). This is the one place where finiteness of an input is used.
-/
import proofs.«104119_j18708877541742_2_alg».proof.Defs
import proofs.«104119_j18708877541742_2_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The straight-through weight at an entry where w is finite is the dequantized weight there. -/
theorem straightThrough_apply (x1 : (⟨S16384x4096, .f32⟩ : BufTy).Contents (Elt Ideal)) (j : S16384x4096.Idx)
    (hfin : ∃ r : ℝ, x1 j = (r : EReal)) :
    val_main_v11 (F := Ideal) x1 j = val_main_v9 (F := Ideal) x1 j := by
  obtain ⟨r, hr⟩ := hfin
  rw [val_main_v11_apply, val_main_v10_apply, hr]
  exact EReal.add_sub_cancel_right

/-- The reference's result at (b, s, o): x(b, s, ·) contracted with the dequantized weight's row o. -/
theorem result_apply (x0 : (⟨S4x2048x4096, .f32⟩ : BufTy).Contents (Elt Ideal)) (x1 : (⟨S16384x4096, .f32⟩ : BufTy).Contents (Elt Ideal))
    (hfin : ∀ j : S16384x4096.Idx, ∃ r : ℝ, x1 j = (r : EReal)) (b : Fin 4) (s : Fin 2048) (o : Fin 16384) :
    val_main_v12 (F := Ideal) x0 x1 (ix3 b s o) = ∑ k : Fin 4096, x0 (ix3 b s k) * val_main_v9 (F := Ideal) x1 (ix2 o k) := by
  rw [val_main_v12_apply]
  refine Finset.sum_congr rfl fun k _ => ?_
  have el : lidx_main_v12 (ix3 b s o) k = ix3 b s k := funext fun a => Fin.ext (by
    match a with
    | ⟨0, _⟩ => rfl
    | ⟨1, _⟩ => rfl
    | ⟨2, _⟩ => rfl)
  have er : ridx_main_v12 (ix3 b s o) k = ix2 o k := funext fun a => Fin.ext (by
    match a with
    | ⟨0, _⟩ => rfl
    | ⟨1, _⟩ => rfl)
  rw [el, er]
  exact congrArg (x0 (ix3 b s k) * ·) (straightThrough_apply x1 (ix2 o k) (hfin (ix2 o k)))

end Cert.ReferenceIdeal.RefValue

end
-- ==== Proof.Finite.lean ====
/-
  What the precondition gives: every entry of the weight is a real number.

  The precondition says that |x| < +∞ at every entry of x and |w| < +∞ at every entry of w (an "all" over each array,
  then a conjunction). Over the extended reals |a| = max a (−a), which is +∞ exactly at a = ±∞; so an entry below +∞ in
  absolute value is a real.
-/
import proofs.«104119_j18708877541742_2_alg».proof.Defs
import Idealize.ShloMosaic.Lib.ReduceAll
import Idealize.ShloMosaic.Lib.ValueIdx
import Idealize.ShloMosaic.PureOps.Ideal.Laws

noncomputable section

open Idealize.ShloMosaic

namespace Cert.Pre_finite_inputs.Finite

open Cert.Pre_finite_inputs

/-- The rank-0 shape has one index. -/
instance : Subsingleton S_.Idx := ⟨fun a b => funext fun d => d.elim0⟩

/-- An extended real whose absolute value is below +∞ is a real. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the precondition every entry of the second argument (the weight) is a real. -/
theorem weight_finite [Facts] (a0 : FVec Ideal S4x2048x4096 .f32) (a1 : FVec Ideal S16384x4096 .f32)
    (h : fn (F := Ideal) a0 a1 = fun _ => 1#1) (j : S16384x4096.Idx) : ∃ r : ℝ, a1 j = (r : EReal) := by
  have h0 := congrFun h ValueIdx.ix0
  dsimp only [fn] at h0
  obtain ⟨-, h1⟩ := IntOp.andi_eq_one.1 h0
  have hj := Host.reduce_andi_all _ _ _ _ _ h1 j
  have hc : Ideal.cmp .olt (max (a1 j) (-(a1 j))) (Ideal.ofBits .f32 0x7F800000#32) = 1#1 := hj
  have htop : Ideal.ofBits .f32 0x7F800000#32 = (⊤ : EReal) := by simp [Ideal.ofBits, Ideal.ieee]
  rw [htop] at hc
  refine real_of_abs_lt_top _ ?_
  by_contra hn
  have hz : Ideal.cmp .olt (max (a1 j) (-(a1 j))) ⊤ = 0#1 := by
    show BitVec.ofBool (decide (max (a1 j) (-(a1 j)) < ⊤)) = 0#1
    rw [decide_eq_false hn]
    rfl
  rw [hz] at hc
  exact absurd hc (by decide)

end Cert.Pre_finite_inputs.Finite

end
-- ==== Proof.lean ====
/-
  A tiled matrix product with a dequantized weight, against x · ŵᵀ computed whole.

  Both programs first compute, from the weight w (16384 × 4096), the scale s = max(mean |w|, 1e-5) and the dequantized
  weight ŵ = clip(round(w / s), −1, 1) · s, by the same host operations with the same constants. The kernel then
  multiplies x (reshaped to 8192 × 4096) with ŵᵀ in 2048 × 1024 output tiles, contracting 512 columns at a time into
  an accumulator that it zeroes at the first step and writes out at the eighth, and reshapes the product back to
  4 × 2048 × 16384. The reference contracts x with the straight-through weight (ŵ + w) − w in one product.

  Over the extended reals the changes of float format are the identity, the eight partial contractions add up to the
  whole one (only associativity and commutativity of +), and (ŵ + w) − w = ŵ wherever w is a real number — which the
  precondition (every input finite) gives. So both results at (b, s, o) are Σ_{k < 4096} x(b, s, k) · ŵ(o, k).

  The pass that idealizes the kernel rewrote nothing, so the kernel's idealization is its own text read over the
  extended reals and that conjunct is trivial. The two kernels' frames are the generated ones; the reference's frame is
  its generated run with the result dropped.
-/
import proofs.«104119_j18708877541742_2_alg».proof.Defs
import proofs.«104119_j18708877541742_2_alg».proof.Proof.Gen.Kernel
import proofs.«104119_j18708877541742_2_alg».proof.Proof.Gen.Kernel.Skeleton
import proofs.«104119_j18708877541742_2_alg».proof.Proof.Gen.Kernel.Launch
import proofs.«104119_j18708877541742_2_alg».proof.Proof.Gen.Kernel.Points
import proofs.«104119_j18708877541742_2_alg».proof.Proof.Gen.Kernel.Frame
import proofs.«104119_j18708877541742_2_alg».proof.Proof.Gen.KernelIdeal
import proofs.«104119_j18708877541742_2_alg».proof.Proof.Gen.KernelIdeal.Skeleton
import proofs.«104119_j18708877541742_2_alg».proof.Proof.Gen.KernelIdeal.Launch
import proofs.«104119_j18708877541742_2_alg».proof.Proof.Gen.KernelIdeal.Points
import proofs.«104119_j18708877541742_2_alg».proof.Proof.Gen.KernelIdeal.Frame
import proofs.«104119_j18708877541742_2_alg».proof.Proof.Gen.ReferenceIdeal
import proofs.«104119_j18708877541742_2_alg».proof.Proof.Gen.ReferenceIdeal.Run
import proofs.«104119_j18708877541742_2_alg».proof.Proof.Gen.ReferenceIdeal.Read
import proofs.«104119_j18708877541742_2_alg».proof.Proof.Gen.Pre_finite_inputs
import proofs.«104119_j18708877541742_2_alg».proof.Proof.KernelRun
import proofs.«104119_j18708877541742_2_alg».proof.Proof.RefValue
import proofs.«104119_j18708877541742_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, of arguments whose weight is finite, is the kernel's: index by index both are x(b, s, ·)
    contracted with the dequantized weight's row o. -/
theorem reference_eq_kernel (m : (ℓ : Loc Cert.KernelIdeal.nD Cert.KernelIdeal.τ Cert.KernelIdeal.sig) → Buf (Elt Ideal) ℓ)
    (c : Dev Cert.KernelIdeal.nD)
    (hfin : ∀ j : Cert.ReferenceIdeal.S16384x4096.Idx, ∃ r : ℝ,
      (m ((c.tc : Thread Cert.KernelIdeal.nD Cert.KernelIdeal.τ).loc Cert.KernelIdeal.main_arg1) : Cert.ReferenceIdeal.S16384x4096.Idx → EReal) j = (r : EReal)) :
    Cert.ReferenceIdeal.Read.val_main_v12 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.HostSide.result m c := by
  funext i
  obtain ⟨b, s, o, rfl⟩ : ∃ (b : Fin 4) (s : Fin 2048) (o : Fin 16384), i = ix3 b s o := ⟨i 0, i 1, i 2, eq_ix3 i⟩
  rw [Cert.ReferenceIdeal.RefValue.result_apply _ _ hfin b s o]
  unfold Cert.KernelIdeal.HostSide.result
  refine Finset.sum_congr rfl fun k _ => ?_
  rw [Cert.KernelIdeal.HostSide.W_apply m c o k]
  rfl

theorem algebraic : Cert.algebraic_KernelIdeal_ReferenceIdeal := by
  intro m ρ m' ρ' hpre hagree
  refine ⟨fun c => Cert.KernelIdeal.HostSide.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact reference_eq_kernel m c (fun j => Cert.Pre_finite_inputs.Finite.weight_finite _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
